-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x32x8192 : Shape := ⟨4, ![1, 1, 32, 8192]⟩
abbrev S8192x8192 : Shape := ⟨2, ![8192, 8192]⟩
abbrev S1024x8192 : Shape := ⟨2, ![1024, 8192]⟩
abbrev S_ : Shape := ⟨0, ![]⟩

class Facts : Prop where
  bcast_S_S1x1x32x8192 : S_.BroadcastsInDim S1x1x32x8192 (![] : Fin 0 → Fin S1x1x32x8192.rank)
  reducesTo_S1x1x32x8192_S_d0_1_2_3 : S1x1x32x8192.ReducesTo [0, 1, 2, 3] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn_part1 {F : FTy → Type} [FloatOps F] (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  main_v18

def fn {F : FTy → Type} [FloatOps F] (main_arg0 : FVec F S1x1x32x8192 .f32) (main_arg1 : FVec F S8192x8192 .f32) (main_arg2 : FVec F S1024x8192 .f32) (main_arg3 : FVec F S1024x8192 .f32) : IVec S_ 1 :=
  let main_v0 : FVec F S1x1x32x8192 .f32 := Host.absf main_arg0
  let main_cst : FVec F S_ .f32 := constant S_ .f32 0x7F800000#32
  let main_v1 : FVec F S1x1x32x8192 .f32 := broadcastInDim S1x1x32x8192 ![] bcast_S_S1x1x32x8192 main_cst
  let main_v2 : IVec S1x1x32x8192 1 := cmpf .olt main_v0 main_v1
  let main_c : IVec S_ 1 := constantI S_ 1 1#1
  let main_v3 : IVec S_ 1 := (fun x v => Host.reduce IntOp.andi x v reducesTo_S1x1x32x8192_S_d0_1_2_3 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_v13 main_v16
-- ==== Kernel.lean ====
abbrev S1x1x32x8192 : Shape := ⟨4, ![1, 1, 32, 8192]⟩
abbrev S8192x8192 : Shape := ⟨2, ![8192, 8192]⟩
abbrev S1024x8192 : Shape := ⟨2, ![1024, 8192]⟩
abbrev S32x8192 : Shape := ⟨2, ![32, 8192]⟩
abbrev S64x32x128 : Shape := ⟨3, ![64, 32, 128]⟩
abbrev S256x8192 : Shape := ⟨2, ![256, 8192]⟩
abbrev S2x32x128 : Shape := ⟨3, ![2, 32, 128]⟩
abbrev S32x256 : Shape := ⟨2, ![32, 256]⟩
abbrev S32x2x128 : Shape := ⟨3, ![32, 2, 128]⟩
abbrev S8x32x128 : Shape := ⟨3, ![8, 32, 128]⟩
abbrev S128x8192 : Shape := ⟨2, ![128, 8192]⟩
abbrev S1x32x128 : Shape := ⟨3, ![1, 32, 128]⟩
abbrev S32x128 : Shape := ⟨2, ![32, 128]⟩
abbrev S32x1x128 : Shape := ⟨3, ![32, 1, 128]⟩
abbrev S1x64x32x128 : Shape := ⟨4, ![1, 64, 32, 128]⟩
abbrev S1x8x32x128 : Shape := ⟨4, ![1, 8, 32, 128]⟩

abbrev nBuf : Space → Nat
  | .hbm => 12
  | .vmem => 14
  | .smem => 0
  | _ => 0

abbrev bufTy : (tb : Table) → Fin (tcTables nBuf tb) → BufTy
  | .hbm, ⟨0, _⟩ => ⟨S1x1x32x8192, .f32⟩
  | .hbm, ⟨1, _⟩ => ⟨S8192x8192, .f32⟩
  | .hbm, ⟨2, _⟩ => ⟨S1024x8192, .f32⟩
  | .hbm, ⟨3, _⟩ => ⟨S1024x8192, .f32⟩
  | .hbm, ⟨4, _⟩ => ⟨S32x8192, .f32⟩
  | .hbm, ⟨5, _⟩ => ⟨S32x8192, .bf16⟩
  | .hbm, ⟨6, _⟩ => ⟨S64x32x128, .f32⟩
  | .hbm, ⟨7, _⟩ => ⟨S8x32x128, .f32⟩
  | .hbm, ⟨8, _⟩ => ⟨S8x32x128, .f32⟩
  | .hbm, ⟨9, _⟩ => ⟨S1x64x32x128, .f32⟩
  | .hbm, ⟨10, _⟩ => ⟨S1x8x32x128, .f32⟩
  | .hbm, ⟨11, _⟩ => ⟨S1x8x32x128, .f32⟩
  | .local _ .vmem, ⟨0, _⟩ => ⟨S32x8192, .bf16⟩
  | .local _ .vmem, ⟨1, _⟩ => ⟨S256x8192, .f32⟩
  | .local _ .vmem, ⟨2, _⟩ => ⟨S256x8192, .f32⟩
  | .local _ .vmem, ⟨3, _⟩ => ⟨S2x32x128, .f32⟩
  | .local _ .vmem, ⟨4, _⟩ => ⟨S2x32x128, .f32⟩
  | .local _ .vmem, ⟨5, _⟩ => ⟨S32x8192, .bf16⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | .local _ .vmem, ⟨9, _⟩ => ⟨S128x8192, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | _, _ => ⟨S1x1x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S32x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x1x32x8192_S32x8192 : S1x1x32x8192.ShapeCasts S32x8192
  bitsLt_bf16_f32 : FTy.bits .bf16 < FTy.bits .f32
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S256x8192_S256x8192_0_0 : ∀ a, (![0, 0] : Fin 2 → Nat) a + S256x8192.size a ≤ S256x8192.size a
  h_S256x8192 : 0 < S256x8192.numel
  shapeCasts_S32x256_S32x2x128 : S32x256.ShapeCasts S32x2x128
  transposes_S32x2x128_p1_0_2_S2x32x128 : S32x2x128.Transposes [1, 0, 2] S2x32x128
  inb_S2x32x128_S2x32x128_0_0_0 : ∀ a, (![0, 0, 0] : Fin 3 → Nat) a + S2x32x128.size a ≤ S2x32x128.size a
  h_S2x32x128 : 0 < S2x32x128.numel
  inb_S128x8192_S128x8192_0_0 : ∀ a, (![0, 0] : Fin 2 → Nat) a + S128x8192.size a ≤ S128x8192.size a
  h_S128x8192 : 0 < S128x8192.numel
  shapeCasts_S32x128_S32x1x128 : S32x128.ShapeCasts S32x1x128
  transposes_S32x1x128_p1_0_2_S1x32x128 : S32x1x128.Transposes [1, 0, 2] S1x32x128
  inb_S1x32x128_S1x32x128_0_0_0 : ∀ a, (![0, 0, 0] : Fin 3 → Nat) a + S1x32x128.size a ≤ S1x32x128.size a
  h_S1x32x128 : 0 < S1x32x128.numel
  bcast_S64x32x128_S1x64x32x128_1_2_3 : S64x32x128.BroadcastsInDim S1x64x32x128 (![1, 2, 3] : Fin 3 → Fin S1x64x32x128.rank)
  bcast_S8x32x128_S1x8x32x128_1_2_3 : S8x32x128.BroadcastsInDim S1x8x32x128 (![1, 2, 3] : Fin 3 → Fin S1x8x32x128.rank)
  dot_S32x8192_S256x8192_S32x256_1_1_0_0_n_n_wf : DotDims.WF S32x8192 S256x8192 S32x256 [1] [1] [0] [0] [] []
  dot_S32x8192_S128x8192_S32x128_1_1_0_0_n_n_wf : DotDims.WF S32x8192 S128x8192 S32x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .bf16 = 32 ∨ (Rect.block (s := S32x8192) S32x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32x128.size a ≤ S64x32x128.size a
  hwx0_2 : ∀ i : grid0.Coords, EltTy.bits .f32 = 32 ∨ (Rect.block (s := S64x32x128) S2x32x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x8192.size a ≤ S32x8192.size a
  hwx1_0 : ∀ i : grid1.Coords, EltTy.bits .bf16 = 32 ∨ (Rect.block (s := S32x8192) S32x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S1024x8192.size a
  hwx1_1 : ∀ i : grid1.Coords, EltTy.bits .f32 = 32 ∨ (Rect.block (s := S1024x8192) S128x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S1024x8192.size a
  hwx1_2 : ∀ i : grid1.Coords, EltTy.bits .f32 = 32 ∨ (Rect.block (s := S1024x8192) S128x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x128.size a ≤ S8x32x128.size a
  hwx1_3 : ∀ i : grid1.Coords, EltTy.bits .f32 = 32 ∨ (Rect.block (s := S8x32x128) S1x32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x128.size a ≤ S8x32x128.size a
  hwx1_4 : ∀ i : grid1.Coords, EltTy.bits .f32 = 32 ∨ (Rect.block (s := S8x32x128) S1x32x128.size (cc1_transform_4 i) (hinb1_4 i)).WholeWords (EltTy.packing .f32)

variable [Facts₀]

def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf
def dot_S32x8192_S128x8192_S32x128_1_1_0_0_n_n : DotDims S32x8192 S128x8192 S32x128 where
  lhsContracting := [1]
  rhsContracting := [1]
  lhsNonContracting := [0]
  rhsNonContracting := [0]
  lhsBatch := []
  rhsBatch := []
  wf := dot_S32x8192_S128x8192_S32x128_1_1_0_0_n_n_wf

abbrev win0_0 : Pipeline.Window sig grid0 :=
  Pipeline.Window.ofSpec (Memref.whole main_v1) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S32x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x32x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x32x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x1x32x8192 : Shape := ⟨4, ![1, 1, 32, 8192]⟩
abbrev S8192x8192 : Shape := ⟨2, ![8192, 8192]⟩
abbrev S1024x8192 : Shape := ⟨2, ![1024, 8192]⟩
abbrev S32x8192 : Shape := ⟨2, ![32, 8192]⟩
abbrev S32x1024 : Shape := ⟨2, ![32, 1024]⟩
abbrev S32x64x128 : Shape := ⟨3, ![32, 64, 128]⟩
abbrev S64x32x128 : Shape := ⟨3, ![64, 32, 128]⟩
abbrev S1x64x32x128 : Shape := ⟨4, ![1, 64, 32, 128]⟩
abbrev S32x8x128 : Shape := ⟨3, ![32, 8, 128]⟩
abbrev S8x32x128 : Shape := ⟨3, ![8, 32, 128]⟩
abbrev S1x8x32x128 : Shape := ⟨4, ![1, 8, 32, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x1x32x8192, .f32⟩
  | .hbm, ⟨1, _⟩ => ⟨S8192x8192, .f32⟩
  | .hbm, ⟨2, _⟩ => ⟨S1024x8192, .f32⟩
  | .hbm, ⟨3, _⟩ => ⟨S1024x8192, .f32⟩
  | .hbm, ⟨4, _⟩ => ⟨S32x8192, .f32⟩
  | .hbm, ⟨5, _⟩ => ⟨S32x8192, .f32⟩
  | .hbm, ⟨6, _⟩ => ⟨S32x1024, .f32⟩
  | .hbm, ⟨7, _⟩ => ⟨S32x1024, .f32⟩
  | .hbm, ⟨8, _⟩ => ⟨S32x64x128, .f32⟩
  | .hbm, ⟨9, _⟩ => ⟨S64x32x128, .f32⟩
  | .hbm, ⟨10, _⟩ => ⟨S1x64x32x128, .f32⟩
  | .hbm, ⟨11, _⟩ => ⟨S32x8x128, .f32⟩
  | .hbm, ⟨12, _⟩ => ⟨S8x32x128, .f32⟩
  | .hbm, ⟨13, _⟩ => ⟨S1x8x32x128, .f32⟩
  | .hbm, ⟨14, _⟩ => ⟨S32x8x128, .f32⟩
  | .hbm, ⟨15, _⟩ => ⟨S8x32x128, .f32⟩
  | .hbm, ⟨16, _⟩ => ⟨S1x8x32x128, .f32⟩
  | _, _ => ⟨S1x1x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S1x1x32x8192_S32x8192 : S1x1x32x8192.ShapeCasts S32x8192
  shapeCasts_S32x8192_S32x64x128 : S32x8192.ShapeCasts S32x64x128
  transposes_S32x64x128_S64x32x128_1_0_2 : S32x64x128.Transposes [1, 0, 2] S64x32x128
  bcast_S64x32x128_S1x64x32x128_1_2_3 : S64x32x128.BroadcastsInDim S1x64x32x128 (![1, 2, 3] : Fin 3 → Fin S1x64x32x128.rank)
  shapeCasts_S32x1024_S32x8x128 : S32x1024.ShapeCasts S32x8x128
  transposes_S32x8x128_S8x32x128_1_0_2 : S32x8x128.Transposes [1, 0, 2] S8x32x128
  bcast_S8x32x128_S1x8x32x128_1_2_3 : S8x32x128.BroadcastsInDim S1x8x32x128 (![1, 2, 3] : Fin 3 → Fin S1x8x32x128.rank)
  dot_S32x8192_S8192x8192_S32x8192_1_1_0_0_n_n_wf : DotDims.WF S32x8192 S8192x8192 S32x8192 [1] [1] [0] [0] [] []
  dot_S32x8192_S1024x8192_S32x1024_1_1_0_0_n_n_wf : DotDims.WF S32x8192 S1024x8192 S32x1024 [1] [1] [0] [0] [] []

variable [Facts₀]

def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf
def dot_S32x8192_S1024x8192_S32x1024_1_1_0_0_n_n : DotDims S32x8192 S1024x8192 S32x1024 where
  lhsContracting := [1]
  rhsContracting := [1]
  lhsNonContracting := [0]
  rhsNonContracting := [0]
  lhsBatch := []
  rhsBatch := []
  wf := dot_S32x8192_S1024x8192_S32x1024_1_1_0_0_n_n_wf

class Facts : Prop extends Facts₀ where

variable [Facts]
-- ==== Proof.LibHeadLayout.lean ====
/-
  Layout operations and a row maximum read at an index given by coordinates, for arrays whose last axis is a run of
  `b` groups of `c` lanes: the last axis split in two by a shape cast (`[a, b·c] → [a, b, c]`, row-major), the last
  two axes merged (`[a, b, c] → [a, b·c]`), the first two axes of a rank-3 array exchanged by a transpose, and the
  maximum over the last axis of a rank-3 array — the vector unit's and the host's — as the fold of `max` over that
  axis's coordinates.
-/
import Idealize.ShloMosaic.Lib.ValueIdx
import Idealize.ShloMosaic.Lib.Pipeline.Value
import Idealize.ShloMosaic.PureOps.Ideal.Laws

noncomputable section

namespace Cert.HeadLayout

open Idealize.ShloMosaic Idealize.ShloMosaic.ValueIdx

variable {α : Type}

/-! ## The last axis split and merged -/

/-- An `[a, m]` array with `m = b · c` cast to `[a, b, c]` reads, at `(i, j, d)`, the operand at `(i, q)` with
    `q = j · c + d`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (d : Fin c)
    (q : Fin m) (hq : q.val = j.val * c + d.val) :
    shapeCast ⟨3, ![a, b, c]⟩ x h (ix3 i j d) = x (ix2 i q) :=
  shapeCast_apply x h _ _ (by
    rw [Shape.rowMajor_val_three, Shape.rowMajor_val_two]
    show i.val * m + q.val = (i.val * b + j.val) * c + d.val
    rw [hq, hm]
    ring)

/-- An `[a, b, c]` array cast to `[a, m]` with `m = b · c` reads, at `(i, q)` with `q = j · c + d`, the operand at
    `(i, j, d)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (q : Fin m) (j : Fin b)
    (d : Fin c) (hq : q.val = j.val * c + d.val) :
    shapeCast ⟨2, ![a, m]⟩ x h (ix2 i q) = x (ix3 i j d) :=
  shapeCast_apply x h _ _ (by
    rw [Shape.rowMajor_val_three, Shape.rowMajor_val_two]
    show (i.val * b + j.val) * c + d.val = i.val * m + q.val
    rw [hq, hm]
    ring)

/-! ## The first two axes exchanged -/

/-- An `[a, b, c]` array transposed by the permutation `[1, 0, 2]` reads, at `(j, i, d)`, the operand at
    `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun e => match e with | ⟨0, _⟩ => rfl | ⟨1, _⟩ => rfl | ⟨2, _⟩ => rfl

/-! ## The maximum over the last axis -/

/-- The vector unit's maximum of an `[a, b, c]` array over its last axis reads, at `(i, j)`, the fold of `max` from
    `-∞` (the accumulator's pattern) over `d` of the array at `(i, j, d)`. -/
theorem laneMax_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun d => src (ix3 i j d)) := by
  refine (Ideal.multiReduction_maximumf_single src 0xFF800000#32 h hφ hacc (ix2 i j)).trans ?_
  exact congrArg (fun f => (Finset.univ : Finset (Fin c)).fold max (Ideal.ofBits .f32 0xFF800000#32) f)
    (funext fun d => congrArg src (funext fun ax => Fin.ext (by
      match ax with
      | ⟨0, _⟩ => rfl
      | ⟨1, _⟩ => rfl
      | ⟨2, _⟩ => rfl)))

/-- The host's maximum of an `[a, b, c]` array over its last axis reads, at `(i, j)`, the fold of `max` from the
    initial value over `d` of the array at `(i, j, d)`. -/
theorem hostLaneMax_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun d => x (ix3 i j d)) := by
  refine (Host.reduce_eq_fold_single (FloatOps.maximumf (F := Ideal) (φ := .f32)) x init h' h hu (ix2 i j)).trans ?_
  exact congrArg (fun f => (Finset.univ : Finset (Fin c)).fold max (init (Shape.Idx.first hu)) f)
    (funext fun d => congrArg x (funext fun ax => Fin.ext (by
      match ax with
      | ⟨0, _⟩ => rfl
      | ⟨1, _⟩ => rfl
      | ⟨2, _⟩ => rfl)))

end Cert.HeadLayout

end
-- ==== Proof.LibProjLayout.lean ====
/-
  Layout operations and two matrix products read at an index given by coordinates, for a body that flattens a block of
  `a` matrices into one tall matrix, multiplies, and cuts the result back: a row-major split of the leading axis
  (`[n, c] → [a, b, c]` with `n = a · b`), a run of lanes cut out of the last axis of a rank-3 array, a product of two
  matrices contracted over the LAST axis of both (`[m, k] · [n, k]ᵀ`) into a zero accumulator, and the same product
  batched over a shared leading axis (`[a, m, k] · [a, n, k]ᵀ`), each as the sum over the contracted coordinate.
-/
import Idealize.ShloMosaic.Lib.ValueIdx
import Idealize.ShloMosaic.Lib.Pipeline.Value
import Idealize.ShloMosaic.PureOps.Ideal.Laws

noncomputable section

namespace Cert.ProjLayout

open Idealize.ShloMosaic Idealize.ShloMosaic.ValueIdx

variable {α : Type}

/-! ## The leading axis split, and lanes cut out -/

/-- An `[n, c]` array cast to `[a, b, c]` with `n = a · b` reads, at `(i, j, d)`, the operand at `(r, d)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-- Lanes `o … o + c - 1` cut out of the last axis of an `[a, b, c']` array read, at `(i, j, d)`, the operand at
    `(i, j, q)` with `q = o + d`. -/
theorem laneSlice_apply {a b c c' o : ℕ} (x : (⟨3, ![a, b, c']⟩ : Shape).Idx → α)
    (h : (⟨3, ![a, b, c']⟩ : Shape).Slices ![0, 0, o] ⟨3, ![a, b, c]⟩) (i : Fin a) (j : Fin b) (d : Fin c) (q : Fin c')
    (hq : q.val = o + d.val) :
    extractStridedSlice ⟨3, ![a, b, c]⟩ ![0, 0, o] x h (ix3 i j d) = x (ix3 i j q) :=
  extractStridedSlice_apply _ x h _ _ fun ax => by
    match ax with
    | ⟨0, _⟩ => show i.val = 0 + i.val; omega
    | ⟨1, _⟩ => show j.val = 0 + j.val; omega
    | ⟨2, _⟩ => show q.val = o + d.val; exact hq

/-! ## Products contracted over the last axis of both operands -/

/-- For dimension numbers that contract the columns of both operands (`hl0` … `hr1`: the operand indices at an output
    index and a contraction position, read off the numbers), an `[m, k] · [n, k]ᵀ` product into the zero splat reads, at
    `(r, c)`, the sum over `f` of left `(r, f)` times right `(c, f)`. -/
theorem matmul_zero_rows_apply {m k n : ℕ} {φ₁ φ₂ : FTy}
    (D : DotDims ⟨2, ![m, k]⟩ ⟨2, ![n, k]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (j 1).val)
    (hr1 : ∀ (j : (⟨2, ![m, n]⟩ : Shape).Idx) (q : D.contr.Idx), (D.rhsIdx j q 1).val = (q ⟨0, by omega⟩).val)
    (prec : Option ContractPrecision) (lhs : FVec Ideal ⟨2, ![m, k]⟩ φ₁) (rhs : FVec Ideal ⟨2, ![n, k]⟩ φ₂)
    (r : Fin m) (c : Fin n) :
    matmul D prec lhs rhs (constant (F := Ideal) ⟨2, ![m, n]⟩ .f32 0x00000000#32) (ix2 r c)
      = ∑ f : Fin k, lhs (ix2 r f) * rhs (ix2 c f) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 c f := funext fun ax => Fin.ext (by
    match ax with
    | ⟨0, _⟩ => exact hr0 _ _
    | ⟨1, _⟩ => exact (hr1 _ _).trans hf)
  rw [el, er]

/-- The same product batched over a shared leading axis: `[a, m, k] · [a, n, k]ᵀ` into the zero splat reads, at
    `(b, r, c)`, the sum over `f` of left `(b, r, f)` times right `(b, c, f)`. -/
theorem batchMatmul_zero_rows_apply {a m k n : ℕ} {φ₁ φ₂ : FTy}
    (D : DotDims ⟨3, ![a, m, k]⟩ ⟨3, ![a, n, k]⟩ ⟨3, ![a, m, n]⟩) (hrank : D.contr.rank = 1)
    (hsize : D.contr.size ⟨0, by omega⟩ = k)
    (hl0 : ∀ (j : (⟨3, ![a, m, n]⟩ : Shape).Idx) (q : D.contr.Idx), (D.lhsIdx j q 0).val = (j 0).val)
    (hl1 : ∀ (j : (⟨3, ![a, m, n]⟩ : Shape).Idx) (q : D.contr.Idx), (D.lhsIdx j q 1).val = (j 1).val)
    (hl2 : ∀ (j : (⟨3, ![a, m, n]⟩ : Shape).Idx) (q : D.contr.Idx), (D.lhsIdx j q 2).val = (q ⟨0, by omega⟩).val)
    (hr0 : ∀ (j : (⟨3, ![a, m, n]⟩ : Shape).Idx) (q : D.contr.Idx), (D.rhsIdx j q 0).val = (j 0).val)
    (hr1 : ∀ (j : (⟨3, ![a, m, n]⟩ : Shape).Idx) (q : D.contr.Idx), (D.rhsIdx j q 1).val = (j 2).val)
    (hr2 : ∀ (j : (⟨3, ![a, m, n]⟩ : Shape).Idx) (q : D.contr.Idx), (D.rhsIdx j q 2).val = (q ⟨0, by omega⟩).val)
    (prec : Option ContractPrecision) (lhs : FVec Ideal ⟨3, ![a, m, k]⟩ φ₁) (rhs : FVec Ideal ⟨3, ![a, n, k]⟩ φ₂)
    (b : Fin a) (r : Fin m) (c : Fin n) :
    matmul D prec lhs rhs (constant (F := Ideal) ⟨3, ![a, m, n]⟩ .f32 0x00000000#32) (ix3 b r c)
      = ∑ f : Fin k, lhs (ix3 b r f) * rhs (ix3 b c f) := by
  refine (Ideal.matmul_constant_zero_apply D prec lhs rhs (ix3 b r c)).trans ?_
  rw [← Equiv.sum_comp (contrEquiv1 D k hrank hsize).symm]
  refine Finset.sum_congr rfl fun f _ => ?_
  have hf := contrEquiv1_symm_val D k hrank hsize f
  have el : D.lhsIdx (ix3 b r c) ((contrEquiv1 D k hrank hsize).symm f) = ix3 b r f := funext fun ax => Fin.ext (by
    match ax with
    | ⟨0, _⟩ => exact hl0 _ _
    | ⟨1, _⟩ => exact hl1 _ _
    | ⟨2, _⟩ => exact (hl2 _ _).trans hf)
  have er : D.rhsIdx (ix3 b r c) ((contrEquiv1 D k hrank hsize).symm f) = ix3 b c f := funext fun ax => Fin.ext (by
    match ax with
    | ⟨0, _⟩ => exact hr0 _ _
    | ⟨1, _⟩ => exact hr1 _ _
    | ⟨2, _⟩ => exact (hr2 _ _).trans hf)
  rw [el, er]

end Cert.ProjLayout

end
-- ==== Proof.LibHeadSplit.lean ====
/-
  The product of the rows of `x` (`a` rows of `k` entries) with the rows of `w` (`n = nh · c` rows of `k` entries), laid
  out by heads: the `[a, n]` product has its last axis split into `nh` heads of `c` lanes and its first two axes
  exchanged, so that entry `(j, i, d)` of the `[nh, a, c]` result is the contraction of row `i` of `x` with row
  `j · c + d` of `w`. Both the vector unit's product into a zero accumulator and the host's `dot_general`, contracted
  over the last axis of both operands, read this way at the extended reals.
-/
import Idealize.ShloMosaic.Lib.ValueIdx
import Idealize.ShloMosaic.Lib.Pipeline.Value
import Idealize.ShloMosaic.PureOps.Ideal.Laws
import proofs.«126660_j86131274154272_2_alg».proof.Proof.LibHeadLayout
import proofs.«126660_j86131274154272_2_alg».proof.Proof.LibProjLayout

noncomputable section

namespace Cert.HeadSplit

open Idealize.ShloMosaic Idealize.ShloMosaic.ValueIdx

/-- Lane `d` of head `j`, among `nh` heads of `c` lanes each, is row `j · c + d` of the `n = nh · c` rows. -/
def headRow {nh c n : ℕ} (hn : n = nh * c) (j : Fin nh) (d : Fin c) : Fin n :=
  ⟨j.val * c + d.val, by
    subst hn
    calc j.val * c + d.val < j.val * c + c := Nat.add_lt_add_left d.isLt _
      _ = (j.val + 1) * c := (Nat.succ_mul _ _).symm
      _ ≤ nh * c := Nat.mul_le_mul_right _ j.isLt⟩

theorem headRow_val {nh c n : ℕ} (hn : n = nh * c) (j : Fin nh) (d : Fin c) :
    (headRow hn j d).val = j.val * c + d.val := rfl

/-- The rows of `x` contracted with the rows of `w`, by heads: entry `(j, i, d)` is `∑ f, x (i, f) · w (j·c + d, f)`. -/
def heads {a k nh c n : ℕ} (hn : n = nh * c) (x : (⟨2, ![a, k]⟩ : Shape).Idx → EReal)
    (w : (⟨2, ![n, k]⟩ : Shape).Idx → EReal) : (⟨3, ![nh, a, c]⟩ : Shape).Idx → EReal :=
  fun t => ∑ f : Fin k, x (ix2 (t 1) f) * w (ix2 (headRow hn (t 0) (t 2)) f)

theorem heads_apply {a k nh c n : ℕ} (hn : n = nh * c) (x : (⟨2, ![a, k]⟩ : Shape).Idx → EReal)
    (w : (⟨2, ![n, k]⟩ : Shape).Idx → EReal) (j : Fin nh) (i : Fin a) (d : Fin c) :
    heads hn x w (ix3 j i d) = ∑ f : Fin k, x (ix2 i f) * w (ix2 (headRow hn j d) f) := rfl

/-- At the extended reals the host's product is the vector unit's product into the zero accumulator: both are the
    plain sum over the contracted positions. -/
theorem hostDot_eq_matmul_zero {sl sr so : Shape} {φ₁ φ₂ : FTy} (D : DotDims sl sr so)
    (prec : Option ContractPrecision) (lhs : FVec Ideal sl φ₁) (rhs : FVec Ideal sr φ₂) :
    Host.dotGeneral (F := Ideal) D prec lhs rhs
      = matmul D prec lhs rhs (constant (F := Ideal) so .f32 0x00000000#32) :=
  funext fun j => (Ideal.dotGeneral_apply D prec .single lhs rhs j).trans
    (Ideal.matmul_constant_zero_apply D prec lhs rhs j).symm

/-- A product contracted over the last axis of both operands, into the zero accumulator, then split into heads and
    transposed, is `heads` of the operands (`hl0` … `hr1`: the operand indices at an output index and a contraction
    position, read off the dimension numbers). -/
theorem matmul_heads {a k nh c n : ℕ} {φ₁ φ₂ : FTy} (hn : n = nh * c)
    (D : DotDims ⟨2, ![a, k]⟩ ⟨2, ![n, k]⟩ ⟨2, ![a, n]⟩) (hrank : D.contr.rank = 1)
    (hsize : D.contr.size ⟨0, by omega⟩ = k)
    (hl0 : ∀ (j : (⟨2, ![a, n]⟩ : Shape).Idx) (q : D.contr.Idx), (D.lhsIdx j q 0).val = (j 0).val)
    (hl1 : ∀ (j : (⟨2, ![a, n]⟩ : Shape).Idx) (q : D.contr.Idx), (D.lhsIdx j q 1).val = (q ⟨0, by omega⟩).val)
    (hr0 : ∀ (j : (⟨2, ![a, n]⟩ : Shape).Idx) (q : D.contr.Idx), (D.rhsIdx j q 0).val = (j 1).val)
    (hr1 : ∀ (j : (⟨2, ![a, n]⟩ : Shape).Idx) (q : D.contr.Idx), (D.rhsIdx j q 1).val = (q ⟨0, by omega⟩).val)
    (prec : Option ContractPrecision) (lhs : FVec Ideal ⟨2, ![a, k]⟩ φ₁) (rhs : FVec Ideal ⟨2, ![n, k]⟩ φ₂)
    (h1 : (⟨2, ![a, n]⟩ : Shape).ShapeCasts ⟨3, ![a, nh, c]⟩)
    (h2 : (⟨3, ![a, nh, c]⟩ : Shape).Transposes [1, 0, 2] ⟨3, ![nh, a, c]⟩) :
    transpose ⟨3, ![nh, a, c]⟩ [1, 0, 2]
        (shapeCast ⟨3, ![a, nh, c]⟩ (matmul D prec lhs rhs (constant (F := Ideal) ⟨2, ![a, n]⟩ .f32 0x00000000#32)) h1) h2
      = heads hn lhs rhs := by
  funext t
  obtain ⟨j, i, d, rfl⟩ : ∃ (j : Fin nh) (i : Fin a) (d : Fin c), t = ix3 j i d := ⟨t 0, t 1, t 2, eq_ix3 t⟩
  exact (HeadLayout.transpose_ix3_102_apply _ h2 j i d).trans
    ((HeadLayout.shapeCast_am_abc_apply _ h1 hn i j d (headRow hn j d) rfl).trans
      (ProjLayout.matmul_zero_rows_apply D hrank hsize hl0 hl1 hr0 hr1 prec lhs rhs i (headRow hn j d)))

/-- The same for the host's `dot_general`. -/
theorem hostDot_heads {a k nh c n : ℕ} {φ₁ φ₂ : FTy} (hn : n = nh * c)
    (D : DotDims ⟨2, ![a, k]⟩ ⟨2, ![n, k]⟩ ⟨2, ![a, n]⟩) (hrank : D.contr.rank = 1)
    (hsize : D.contr.size ⟨0, by omega⟩ = k)
    (hl0 : ∀ (j : (⟨2, ![a, n]⟩ : Shape).Idx) (q : D.contr.Idx), (D.lhsIdx j q 0).val = (j 0).val)
    (hl1 : ∀ (j : (⟨2, ![a, n]⟩ : Shape).Idx) (q : D.contr.Idx), (D.lhsIdx j q 1).val = (q ⟨0, by omega⟩).val)
    (hr0 : ∀ (j : (⟨2, ![a, n]⟩ : Shape).Idx) (q : D.contr.Idx), (D.rhsIdx j q 0).val = (j 1).val)
    (hr1 : ∀ (j : (⟨2, ![a, n]⟩ : Shape).Idx) (q : D.contr.Idx), (D.rhsIdx j q 1).val = (q ⟨0, by omega⟩).val)
    (prec : Option ContractPrecision) (lhs : FVec Ideal ⟨2, ![a, k]⟩ φ₁) (rhs : FVec Ideal ⟨2, ![n, k]⟩ φ₂)
    (h1 : (⟨2, ![a, n]⟩ : Shape).ShapeCasts ⟨3, ![a, nh, c]⟩)
    (h2 : (⟨3, ![a, nh, c]⟩ : Shape).Transposes [1, 0, 2] ⟨3, ![nh, a, c]⟩) :
    transpose ⟨3, ![nh, a, c]⟩ [1, 0, 2]
        (shapeCast ⟨3, ![a, nh, c]⟩ (Host.dotGeneral (F := Ideal) D prec lhs rhs) h1) h2
      = heads hn lhs rhs := by
  rw [hostDot_eq_matmul_zero]
  exact matmul_heads hn D hrank hsize hl0 hl1 hr0 hr1 prec lhs rhs h1 h2

end Cert.HeadSplit

end
-- ==== Proof.KernelBlocks.lean ====
/-
  What each kernel body stores, as a function of the blocks it loads: the rows of the `x` block (all 32 rows, all 8192
  entries) contracted with the rows of the weight block (256 rows for the query call, 128 for the key / value call), the
  product's last axis split into heads of 128 lanes and the first two axes exchanged. At the extended reals a change of
  float format is the identity, so the stored block is the head-split contraction `HeadSplit.heads` of the two loaded
  blocks: 2 heads per point for the query call, 1 head per point for each of key and value.
-/
import proofs.«126660_j86131274154272_2_alg».proof.Proof.Gen.KernelIdeal.Skeleton
import proofs.«126660_j86131274154272_2_alg».proof.Proof.LibHeadSplit

noncomputable section

namespace Cert.KernelIdeal.Blocks

open Cert.KernelIdeal Cert.KernelIdeal.Gen Idealize.ShloMosaic Idealize.ShloMosaic.ValueIdx

/-! ## The operand indices of the two contractions: left `(r, f)`, right `(c, f)` at output `(r, c)`, position `f` -/

theorem lq0 (i : S32x256.Idx) (q : dot_S32x8192_S256x8192_S32x256_1_1_0_0_n_n.contr.Idx) :
    (dot_S32x8192_S256x8192_S32x256_1_1_0_0_n_n.lhsIdx i q 0).val = (i 0).val := by
  unfold DotDims.lhsIdx
  rw [dif_neg (show ¬(0 : Fin S32x8192.rank) ∈ dot_S32x8192_S256x8192_S32x256_1_1_0_0_n_n.lhsBatch by decide),
    dif_pos (show (0 : Fin S32x8192.rank) ∈ dot_S32x8192_S256x8192_S32x256_1_1_0_0_n_n.lhsNonContracting by decide)]
  rfl
theorem lq1 (i : S32x256.Idx) (q : dot_S32x8192_S256x8192_S32x256_1_1_0_0_n_n.contr.Idx) :
    (dot_S32x8192_S256x8192_S32x256_1_1_0_0_n_n.lhsIdx i q 1).val = (q ⟨0, by decide⟩).val :=
  dot_S32x8192_S256x8192_S32x256_1_1_0_0_n_n.lhsIdx_val_of_single rfl i q
theorem rq0 (i : S32x256.Idx) (q : dot_S32x8192_S256x8192_S32x256_1_1_0_0_n_n.contr.Idx) :
    (dot_S32x8192_S256x8192_S32x256_1_1_0_0_n_n.rhsIdx i q 0).val = (i 1).val := by
  unfold DotDims.rhsIdx
  rw [dif_neg (show ¬(0 : Fin S256x8192.rank) ∈ dot_S32x8192_S256x8192_S32x256_1_1_0_0_n_n.rhsBatch by decide),
    dif_pos (show (0 : Fin S256x8192.rank) ∈ dot_S32x8192_S256x8192_S32x256_1_1_0_0_n_n.rhsNonContracting by decide)]
  rfl
theorem rq1 (i : S32x256.Idx) (q : dot_S32x8192_S256x8192_S32x256_1_1_0_0_n_n.contr.Idx) :
    (dot_S32x8192_S256x8192_S32x256_1_1_0_0_n_n.rhsIdx i q 1).val = (q ⟨0, by decide⟩).val :=
  dot_S32x8192_S256x8192_S32x256_1_1_0_0_n_n.rhsIdx_val_of_single rfl i q

theorem lk0 (i : S32x128.Idx) (q : dot_S32x8192_S128x8192_S32x128_1_1_0_0_n_n.contr.Idx) :
    (dot_S32x8192_S128x8192_S32x128_1_1_0_0_n_n.lhsIdx i q 0).val = (i 0).val := by
  unfold DotDims.lhsIdx
  rw [dif_neg (show ¬(0 : Fin S32x8192.rank) ∈ dot_S32x8192_S128x8192_S32x128_1_1_0_0_n_n.lhsBatch by decide),
    dif_pos (show (0 : Fin S32x8192.rank) ∈ dot_S32x8192_S128x8192_S32x128_1_1_0_0_n_n.lhsNonContracting by decide)]
  rfl
theorem lk1 (i : S32x128.Idx) (q : dot_S32x8192_S128x8192_S32x128_1_1_0_0_n_n.contr.Idx) :
    (dot_S32x8192_S128x8192_S32x128_1_1_0_0_n_n.lhsIdx i q 1).val = (q ⟨0, by decide⟩).val :=
  dot_S32x8192_S128x8192_S32x128_1_1_0_0_n_n.lhsIdx_val_of_single rfl i q
theorem rk0 (i : S32x128.Idx) (q : dot_S32x8192_S128x8192_S32x128_1_1_0_0_n_n.contr.Idx) :
    (dot_S32x8192_S128x8192_S32x128_1_1_0_0_n_n.rhsIdx i q 0).val = (i 1).val := by
  unfold DotDims.rhsIdx
  rw [dif_neg (show ¬(0 : Fin S128x8192.rank) ∈ dot_S32x8192_S128x8192_S32x128_1_1_0_0_n_n.rhsBatch by decide),
    dif_pos (show (0 : Fin S128x8192.rank) ∈ dot_S32x8192_S128x8192_S32x128_1_1_0_0_n_n.rhsNonContracting by decide)]
  rfl
theorem rk1 (i : S32x128.Idx) (q : dot_S32x8192_S128x8192_S32x128_1_1_0_0_n_n.contr.Idx) :
    (dot_S32x8192_S128x8192_S32x128_1_1_0_0_n_n.rhsIdx i q 1).val = (q ⟨0, by decide⟩).val :=
  dot_S32x8192_S128x8192_S32x128_1_1_0_0_n_n.rhsIdx_val_of_single rfl i q

/-! ## The stored blocks -/

/-- The query call stores, per point, two heads: the `x` block contracted with the 256 loaded rows of `wq`. -/
theorem payQ (x0 : Vec Ideal S32x8192 .bf16) (x1 : Vec Ideal S256x8192 .f32) :
    k0_pay1 (F := Ideal) x0 x1 = HeadSplit.heads (show 256 = 2 * 128 from rfl) x0 x1 := by
  unfold k0_pay1
  refine (HeadSplit.matmul_heads (show 256 = 2 * 128 from rfl) dot_S32x8192_S256x8192_S32x256_1_1_0_0_n_n rfl rfl
    lq0 lq1 rq0 rq1 none _ _ _ _).trans ?_
  rw [shapeCast_self]
  rfl

/-- The key / value call stores, per point and per output, one head: the `x` block contracted with the 128 loaded
    rows of `wk`, … -/
theorem payK (x0 : Vec Ideal S32x8192 .bf16) (x1 : Vec Ideal S128x8192 .f32) :
    k1_pay2 (F := Ideal) x0 x1 = HeadSplit.heads (show 128 = 1 * 128 from rfl) x0 x1 := by
  unfold k1_pay2 k1_pay1
  refine (HeadSplit.matmul_heads (show 128 = 1 * 128 from rfl) dot_S32x8192_S128x8192_S32x128_1_1_0_0_n_n rfl rfl
    lk0 lk1 rk0 rk1 none _ _ _ _).trans ?_
  rw [shapeCast_self]
  rfl

/-- … and of `wv`. -/
theorem payV (x0 : Vec Ideal S32x8192 .bf16) (x2 : Vec Ideal S128x8192 .f32) :
    k1_pay3 (F := Ideal) x0 x2 = HeadSplit.heads (show 128 = 1 * 128 from rfl) x0 x2 := by
  unfold k1_pay3 k1_pay1
  refine (HeadSplit.matmul_heads (show 128 = 1 * 128 from rfl) dot_S32x8192_S128x8192_S32x128_1_1_0_0_n_n rfl rfl
    lk0 lk1 rk0 rk1 none _ _ _ _).trans ?_
  rw [shapeCast_self]
  rfl

end Cert.KernelIdeal.Blocks

end
-- ==== Proof.KernelArrays.lean ====
/-
  From blocks to arrays. The query call runs 32 points; point `t` loads all of `x` and rows `256·t … 256·t + 255` of `wq`
  and writes back heads `2·t` and `2·t + 1` of the `[64, 32, 128]` result. The key / value call runs 8 points; point `t`
  loads all of `x` and rows `128·t … 128·t + 127` of `wk` and of `wv` and writes back head `t` of each `[8, 32, 128]` result.
  Head `j`, lane `d` of the whole projection uses row `128·j + d` of the weight matrix, and `128·(2t + a) + d = 256·t +
  (128·a + d)`: so what a point writes back is its block of ONE whole-array function — the head-split contraction of the
  arrays as the region finds them — and since the blocks tile each result, the result ends holding that function.
-/
import proofs.«126660_j86131274154272_2_alg».proof.Proof.Gen.KernelIdeal.Frame
import proofs.«126660_j86131274154272_2_alg».proof.Proof.KernelBlocks
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! # The query call -/

/-- The printed index maps over the grid: `x` always at block (0, 0); `wq` and the result at block `t` along their
    leading axis. -/
theorem idxQ : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The `x` window's block at any point is the whole array. -/
theorem xblkQ (c : Dev nD) (t : Fin cfg0.N) (y : S32x8192.Idx) :
    (iblk0 V c 0 t : Vec Ideal S32x8192 .bf16) y = (V c main_v1 : S32x8192.Idx → EReal) y := by
  obtain ⟨e0, e1, -⟩ := idxQ t
  unfold iblk0
  rw [View.read_apply]
  show V c main_v1 _ = V c main_v1 _
  congr 1
  funext a
  apply Fin.ext
  match a with
  | ⟨0, _⟩ => show win0_0.index t (0 : Fin 2) * 32 + 1 * (y 0).val = (y 0).val; rw [e0]; omega
  | ⟨1, _⟩ => show win0_0.index t (1 : Fin 2) * 8192 + 1 * (y 1).val = (y 1).val; rw [e1]; omega

/-- The `wq` window's block at point `t` is rows `256·t … 256·t + 255`. -/
theorem wblkQ (c : Dev nD) (t : Fin cfg0.N) (y : S256x8192.Idx) (i : S8192x8192.Idx)
    (h0 : (i 0).val = t.val * 256 + (y 0).val) (h1 : (i 1).val = (y 1).val) :
    (iblk0 V c 1 t : Vec Ideal S256x8192 .f32) y = (V c main_arg1 : S8192x8192.Idx → EReal) i := by
  obtain ⟨-, -, e2, e3, -⟩ := idxQ t
  unfold iblk0
  rw [View.read_apply]
  show V c main_arg1 _ = V c main_arg1 _
  congr 1
  funext a
  apply Fin.ext
  match a with
  | ⟨0, _⟩ => show win0_1.index t (0 : Fin 2) * 256 + 1 * (y 0).val = (i 0).val; rw [e2, h0]; omega
  | ⟨1, _⟩ => show win0_1.index t (1 : Fin 2) * 8192 + 1 * (y 1).val = (i 1).val; rw [e3, h1]; omega

/-- The two heads point `t` computes are heads `2t` and `2t + 1` of the whole projection. -/
theorem headsQ_block (c : Dev nD) (t : Fin cfg0.N) (a : Fin 2) (b : Fin 32) (d : Fin 128) (h : Fin 64)
    (hh : h.val = t.val * 2 + a.val) :
    HeadSplit.heads (show 256 = 2 * 128 from rfl) (iblk0 V c 0 t) (iblk0 V c 1 t) (ix3 a b d)
      = HeadSplit.heads (show 8192 = 64 * 128 from rfl) (V c main_v1) (V c main_arg1) (ix3 h b d) := by
  rw [HeadSplit.heads_apply, HeadSplit.heads_apply]
  refine Finset.sum_congr rfl fun f _ => ?_
  rw [xblkQ V c t (ix2 b f), wblkQ V c t (ix2 (HeadSplit.headRow (show 256 = 2 * 128 from rfl) a d) f)
    (ix2 (HeadSplit.headRow (show 8192 = 64 * 128 from rfl) h d) f)
    (by show h.val * 128 + d.val = t.val * 256 + (a.val * 128 + d.val); omega) rfl]

/-- What point `t` writes back is block `t` of the whole projection of the arrays as the region finds them. -/
theorem flushedQ (c : Dev nD) (t : Fin cfg0.N) :
    (dat0 V c).flushed 2 t = ((cfg0.win 2).blk t).view.read (Elt Ideal)
      (HeadSplit.heads (show 8192 = 64 * 128 from rfl) (V c main_v1) (V c main_arg1)) := by
  show (cfg0.win 2).cut (grid0.coords t) ((dat0 V c).after 2 t) = _
  rw [after0_2]
  unfold out0_2
  rw [View.canon_unit_zero hz3]
  simp only [View.ld_unit_zero (S := S32x8192) hz2, View.ld_unit_zero (S := S256x8192) hz2]
  rw [Blocks.payQ]
  obtain ⟨-, -, -, -, o0, o1, o2⟩ := idxQ t
  funext j
  obtain ⟨a, b, d, rfl⟩ : ∃ (a : Fin 2) (b : Fin 32) (d : Fin 128), j = ix3 a b d := ⟨j 0, j 1, j 2, eq_ix3 j⟩
  obtain ⟨h, hh⟩ : ∃ h : Fin 64, h.val = t.val * 2 + a.val :=
    ⟨⟨t.val * 2 + a.val, by have ht : t.val < 32 := lt_of_lt_of_eq t.isLt (show cfg0.N = 32 from N_0); have := a.isLt; omega⟩, rfl⟩
  show HeadSplit.heads (show 256 = 2 * 128 from rfl) (iblk0 V c 0 t) (iblk0 V c 1 t) (ix3 a b d)
    = HeadSplit.heads (show 8192 = 64 * 128 from rfl) (V c main_v1) (V c main_arg1) (((cfg0.win 2).blk t).view.emb (ix3 a b d))
  have hemb : ((cfg0.win 2).blk t).view.emb (ix3 a b d) = ix3 h b d := by
    funext ax
    apply Fin.ext
    match ax with
    | ⟨0, _⟩ => show win0_2.index t (0 : Fin 3) * 2 + 1 * a.val = h.val; rw [o0, hh]; omega
    | ⟨1, _⟩ => show win0_2.index t (1 : Fin 3) * 32 + 1 * b.val = b.val; rw [o1]; omega
    | ⟨2, _⟩ => show win0_2.index t (2 : Fin 3) * 128 + 1 * d.val = d.val; rw [o2]; omega
  rw [hemb]
  exact headsQ_block V c t a b d h hh

/-- An index of the array is in point `t`'s block iff each coordinate is in the block's range on its axis. -/
theorem mem_blkQ (t : Fin cfg0.N) (i : S64x32x128.Idx) :
    i ∈ ((cfg0.win 2).blk t).view.set ↔ ∀ a : Fin 3, win0_2.index t a * S2x32x128.size a ≤ (i a).val
      ∧ (i a).val < win0_2.index t a * S2x32x128.size a + S2x32x128.size a := by
  show i ∈ ((View.whole main_v2).slice (win0_2.rect t)).set ↔ _
  rw [View.set_slice_whole, Rect.mem_set_unit]
  exact Iff.rfl

/-- Head `h` is in point `h / 2`'s block: the 32 blocks cover the array. -/
theorem coverQ (i : S64x32x128.Idx) :
    ∃ t : Fin cfg0.N, (cfg0.win 2).flush t = true ∧ i ∈ ((cfg0.win 2).blk t).view.set := by
  have h0 : (i 0).val < 64 := (i 0).isLt
  have h1 : (i 1).val < 32 := (i 1).isLt
  have h2 : (i 2).val < 128 := (i 2).isLt
  obtain ⟨t, ht⟩ : ∃ t : Fin cfg0.N, t.val = (i 0).val / 2 :=
    ⟨⟨(i 0).val / 2, by rw [show cfg0.N = 32 from N_0]; omega⟩, rfl⟩
  obtain ⟨-, -, -, -, o0, o1, o2⟩ := idxQ t
  refine ⟨t, flush0_2 t, ?_⟩
  rw [mem_blkQ]
  intro a
  match a with
  | ⟨0, _⟩ => show win0_2.index t (0 : Fin 3) * 2 ≤ (i 0).val ∧ (i 0).val < win0_2.index t (0 : Fin 3) * 2 + 2; rw [o0]; omega
  | ⟨1, _⟩ => show win0_2.index t (1 : Fin 3) * 32 ≤ (i 1).val ∧ (i 1).val < win0_2.index t (1 : Fin 3) * 32 + 32; rw [o1]; omega
  | ⟨2, _⟩ => show win0_2.index t (2 : Fin 3) * 128 ≤ (i 2).val ∧ (i 2).val < win0_2.index t (2 : Fin 3) * 128 + 128; rw [o2]; omega

/-- After the region the query result holds the whole projection, by heads. -/
theorem finalQ (c : Dev nD) : (dat0 V c).arrAt 2 cfg0.N
    = HeadSplit.heads (show 8192 = 64 * 128 from rfl) (V c main_v1) (V c main_arg1) :=
  (dat0 V c).arrAt_eq_of_cover 2 _ (fun t _ => flushedQ V c t) coverQ

/-! # The key / value call -/

/-- The printed index maps over the grid: `x` always at block (0, 0); `wk`, `wv` and both results at block `t` along
    their leading axis. -/
theorem idxKV : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- The `x` window's block at any point is the whole array. -/
theorem xblkKV (c : Dev nD) (t : Fin cfg1.N) (y : S32x8192.Idx) :
    (iblk1 V c 0 t : Vec Ideal S32x8192 .bf16) y = (V c main_v1 : S32x8192.Idx → EReal) y := by
  obtain ⟨e0, e1, -⟩ := idxKV t
  unfold iblk1
  rw [View.read_apply]
  show V c main_v1 _ = V c main_v1 _
  congr 1
  funext a
  apply Fin.ext
  match a with
  | ⟨0, _⟩ => show win1_0.index t (0 : Fin 2) * 32 + 1 * (y 0).val = (y 0).val; rw [e0]; omega
  | ⟨1, _⟩ => show win1_0.index t (1 : Fin 2) * 8192 + 1 * (y 1).val = (y 1).val; rw [e1]; omega

/-- Weight window 1's block at point `t` is rows `128·t … 128·t + 127` of `wk`. -/
theorem wblkK (c : Dev nD) (t : Fin cfg1.N) (y : S128x8192.Idx) (i : S1024x8192.Idx)
    (h0 : (i 0).val = t.val * 128 + (y 0).val) (h1 : (i 1).val = (y 1).val) :
    (iblk1 V c 1 t : Vec Ideal S128x8192 .f32) y = (V c main_arg2 : S1024x8192.Idx → EReal) i := by
  obtain ⟨-, -, e2, e3, e4, e5, -⟩ := idxKV t
  unfold iblk1
  rw [View.read_apply]
  show V c main_arg2 _ = V c main_arg2 _
  congr 1
  funext a
  apply Fin.ext
  match a with
  | ⟨0, _⟩ => show win1_1.index t (0 : Fin 2) * 128 + 1 * (y 0).val = (i 0).val; rw [e2, h0]; omega
  | ⟨1, _⟩ => show win1_1.index t (1 : Fin 2) * 8192 + 1 * (y 1).val = (i 1).val; rw [e3, h1]; omega

/-- The one head point `t` computes for the key result is head `t` of the whole projection. -/
theorem headsK_block (c : Dev nD) (t : Fin cfg1.N) (a : Fin 1) (b : Fin 32) (d : Fin 128) (h : Fin 8)
    (hh : h.val = t.val + a.val) :
    HeadSplit.heads (show 128 = 1 * 128 from rfl) (iblk1 V c 0 t) (iblk1 V c 1 t) (ix3 a b d)
      = HeadSplit.heads (show 1024 = 8 * 128 from rfl) (V c main_v1) (V c main_arg2) (ix3 h b d) := by
  rw [HeadSplit.heads_apply, HeadSplit.heads_apply]
  refine Finset.sum_congr rfl fun f _ => ?_
  rw [xblkKV V c t (ix2 b f), wblkK V c t (ix2 (HeadSplit.headRow (show 128 = 1 * 128 from rfl) a d) f)
    (ix2 (HeadSplit.headRow (show 1024 = 8 * 128 from rfl) h d) f)
    (by show h.val * 128 + d.val = t.val * 128 + (a.val * 128 + d.val); have := a.isLt; omega) rfl]

/-- What point `t` writes back to the key result is block `t` of the whole projection of the arrays as the region finds them. -/
theorem flushedK (c : Dev nD) (t : Fin cfg1.N) :
    (dat1 V c).flushed 3 t = ((cfg1.win 3).blk t).view.read (Elt Ideal)
      (HeadSplit.heads (show 1024 = 8 * 128 from rfl) (V c main_v1) (V c main_arg2)) := by
  show (cfg1.win 3).cut (grid1.coords t) ((dat1 V c).after 3 t) = _
  rw [after1_3]
  unfold out1_3
  rw [View.canon_unit_zero hz3]
  simp only [View.ld_unit_zero (S := S32x8192) hz2, View.ld_unit_zero (S := S128x8192) hz2]
  rw [Blocks.payK]
  obtain ⟨-, -, -, -, -, -, ⟨o0, o1, o2⟩, -⟩ := idxKV t
  funext j
  obtain ⟨a, b, d, rfl⟩ : ∃ (a : Fin 1) (b : Fin 32) (d : Fin 128), j = ix3 a b d := ⟨j 0, j 1, j 2, eq_ix3 j⟩
  obtain ⟨h, hh⟩ : ∃ h : Fin 8, h.val = t.val + a.val :=
    ⟨⟨t.val + a.val, by have ht : t.val < 8 := lt_of_lt_of_eq t.isLt (show cfg1.N = 8 from N_1); have := a.isLt; omega⟩, rfl⟩
  show HeadSplit.heads (show 128 = 1 * 128 from rfl) (iblk1 V c 0 t) (iblk1 V c 1 t) (ix3 a b d)
    = HeadSplit.heads (show 1024 = 8 * 128 from rfl) (V c main_v1) (V c main_arg2) (((cfg1.win 3).blk t).view.emb (ix3 a b d))
  have hemb : ((cfg1.win 3).blk t).view.emb (ix3 a b d) = ix3 h b d := by
    funext ax
    apply Fin.ext
    match ax with
    | ⟨0, _⟩ => show win1_3.index t (0 : Fin 3) * 1 + 1 * a.val = h.val; rw [o0, hh]; omega
    | ⟨1, _⟩ => show win1_3.index t (1 : Fin 3) * 32 + 1 * b.val = b.val; rw [o1]; omega
    | ⟨2, _⟩ => show win1_3.index t (2 : Fin 3) * 128 + 1 * d.val = d.val; rw [o2]; omega
  rw [hemb]
  exact headsK_block V c t a b d h hh

/-- An index of the array is in point `t`'s block iff each coordinate is in the block's range on its axis. -/
theorem mem_blkK (t : Fin cfg1.N) (i : S8x32x128.Idx) :
    i ∈ ((cfg1.win 3).blk t).view.set ↔ ∀ a : Fin 3, win1_3.index t a * S1x32x128.size a ≤ (i a).val
      ∧ (i a).val < win1_3.index t a * S1x32x128.size a + S1x32x128.size a := by
  show i ∈ ((View.whole main_v3_0).slice (win1_3.rect t)).set ↔ _
  rw [View.set_slice_whole, Rect.mem_set_unit]
  exact Iff.rfl

/-- Head `h` is point `h`'s block: the eight blocks cover the array. -/
theorem coverK (i : S8x32x128.Idx) :
    ∃ t : Fin cfg1.N, (cfg1.win 3).flush t = true ∧ i ∈ ((cfg1.win 3).blk t).view.set := by
  have h0 : (i 0).val < 8 := (i 0).isLt
  have h1 : (i 1).val < 32 := (i 1).isLt
  have h2 : (i 2).val < 128 := (i 2).isLt
  obtain ⟨t, ht⟩ : ∃ t : Fin cfg1.N, t.val = (i 0).val := ⟨⟨(i 0).val, by rw [show cfg1.N = 8 from N_1]; omega⟩, rfl⟩
  obtain ⟨-, -, -, -, -, -, ⟨o0, o1, o2⟩, -⟩ := idxKV t
  refine ⟨t, flush1_3 t, ?_⟩
  rw [mem_blkK]
  intro a
  match a with
  | ⟨0, _⟩ => show win1_3.index t (0 : Fin 3) * 1 ≤ (i 0).val ∧ (i 0).val < win1_3.index t (0 : Fin 3) * 1 + 1; rw [o0]; omega
  | ⟨1, _⟩ => show win1_3.index t (1 : Fin 3) * 32 ≤ (i 1).val ∧ (i 1).val < win1_3.index t (1 : Fin 3) * 32 + 32; rw [o1]; omega
  | ⟨2, _⟩ => show win1_3.index t (2 : Fin 3) * 128 ≤ (i 2).val ∧ (i 2).val < win1_3.index t (2 : Fin 3) * 128 + 128; rw [o2]; omega

/-- After the region the key result holds the whole projection, by heads. -/
theorem finalK (c : Dev nD) : (dat1 V c).arrAt 3 cfg1.N
    = HeadSplit.heads (show 1024 = 8 * 128 from rfl) (V c main_v1) (V c main_arg2) :=
  (dat1 V c).arrAt_eq_of_cover 3 _ (fun t _ => flushedK V c t) coverK

/-- Weight window 2's block at point `t` is rows `128·t … 128·t + 127` of `wv`. -/
theorem wblkV (c : Dev nD) (t : Fin cfg1.N) (y : S128x8192.Idx) (i : S1024x8192.Idx)
    (h0 : (i 0).val = t.val * 128 + (y 0).val) (h1 : (i 1).val = (y 1).val) :
    (iblk1 V c 2 t : Vec Ideal S128x8192 .f32) y = (V c main_arg3 : S1024x8192.Idx → EReal) i := by
  obtain ⟨-, -, e2, e3, e4, e5, -⟩ := idxKV t
  unfold iblk1
  rw [View.read_apply]
  show V c main_arg3 _ = V c main_arg3 _
  congr 1
  funext a
  apply Fin.ext
  match a with
  | ⟨0, _⟩ => show win1_2.index t (0 : Fin 2) * 128 + 1 * (y 0).val = (i 0).val; rw [e4, h0]; omega
  | ⟨1, _⟩ => show win1_2.index t (1 : Fin 2) * 8192 + 1 * (y 1).val = (i 1).val; rw [e5, h1]; omega

/-- The one head point `t` computes for the value result is head `t` of the whole projection. -/
theorem headsV_block (c : Dev nD) (t : Fin cfg1.N) (a : Fin 1) (b : Fin 32) (d : Fin 128) (h : Fin 8)
    (hh : h.val = t.val + a.val) :
    HeadSplit.heads (show 128 = 1 * 128 from rfl) (iblk1 V c 0 t) (iblk1 V c 2 t) (ix3 a b d)
      = HeadSplit.heads (show 1024 = 8 * 128 from rfl) (V c main_v1) (V c main_arg3) (ix3 h b d) := by
  rw [HeadSplit.heads_apply, HeadSplit.heads_apply]
  refine Finset.sum_congr rfl fun f _ => ?_
  rw [xblkKV V c t (ix2 b f), wblkV V c t (ix2 (HeadSplit.headRow (show 128 = 1 * 128 from rfl) a d) f)
    (ix2 (HeadSplit.headRow (show 1024 = 8 * 128 from rfl) h d) f)
    (by show h.val * 128 + d.val = t.val * 128 + (a.val * 128 + d.val); have := a.isLt; omega) rfl]

/-- What point `t` writes back to the value result is block `t` of the whole projection of the arrays as the region finds them. -/
theorem flushedV (c : Dev nD) (t : Fin cfg1.N) :
    (dat1 V c).flushed 4 t = ((cfg1.win 4).blk t).view.read (Elt Ideal)
      (HeadSplit.heads (show 1024 = 8 * 128 from rfl) (V c main_v1) (V c main_arg3)) := by
  show (cfg1.win 4).cut (grid1.coords t) ((dat1 V c).after 4 t) = _
  rw [after1_4]
  unfold out1_4
  rw [View.canon_unit_zero hz3]
  simp only [View.ld_unit_zero (S := S32x8192) hz2, View.ld_unit_zero (S := S128x8192) hz2]
  rw [Blocks.payV]
  obtain ⟨-, -, -, -, -, -, -, ⟨o0, o1, o2⟩⟩ := idxKV t
  funext j
  obtain ⟨a, b, d, rfl⟩ : ∃ (a : Fin 1) (b : Fin 32) (d : Fin 128), j = ix3 a b d := ⟨j 0, j 1, j 2, eq_ix3 j⟩
  obtain ⟨h, hh⟩ : ∃ h : Fin 8, h.val = t.val + a.val :=
    ⟨⟨t.val + a.val, by have ht : t.val < 8 := lt_of_lt_of_eq t.isLt (show cfg1.N = 8 from N_1); have := a.isLt; omega⟩, rfl⟩
  show HeadSplit.heads (show 128 = 1 * 128 from rfl) (iblk1 V c 0 t) (iblk1 V c 2 t) (ix3 a b d)
    = HeadSplit.heads (show 1024 = 8 * 128 from rfl) (V c main_v1) (V c main_arg3) (((cfg1.win 4).blk t).view.emb (ix3 a b d))
  have hemb : ((cfg1.win 4).blk t).view.emb (ix3 a b d) = ix3 h b d := by
    funext ax
    apply Fin.ext
    match ax with
    | ⟨0, _⟩ => show win1_4.index t (0 : Fin 3) * 1 + 1 * a.val = h.val; rw [o0, hh]; omega
    | ⟨1, _⟩ => show win1_4.index t (1 : Fin 3) * 32 + 1 * b.val = b.val; rw [o1]; omega
    | ⟨2, _⟩ => show win1_4.index t (2 : Fin 3) * 128 + 1 * d.val = d.val; rw [o2]; omega
  rw [hemb]
  exact headsV_block V c t a b d h hh

/-- An index of the array is in point `t`'s block iff each coordinate is in the block's range on its axis. -/
theorem mem_blkV (t : Fin cfg1.N) (i : S8x32x128.Idx) :
    i ∈ ((cfg1.win 4).blk t).view.set ↔ ∀ a : Fin 3, win1_4.index t a * S1x32x128.size a ≤ (i a).val
      ∧ (i a).val < win1_4.index t a * S1x32x128.size a + S1x32x128.size a := by
  show i ∈ ((View.whole main_v3_1).slice (win1_4.rect t)).set ↔ _
  rw [View.set_slice_whole, Rect.mem_set_unit]
  exact Iff.rfl

/-- Head `h` is point `h`'s block: the eight blocks cover the array. -/
theorem coverV (i : S8x32x128.Idx) :
    ∃ t : Fin cfg1.N, (cfg1.win 4).flush t = true ∧ i ∈ ((cfg1.win 4).blk t).view.set := by
  have h0 : (i 0).val < 8 := (i 0).isLt
  have h1 : (i 1).val < 32 := (i 1).isLt
  have h2 : (i 2).val < 128 := (i 2).isLt
  obtain ⟨t, ht⟩ : ∃ t : Fin cfg1.N, t.val = (i 0).val := ⟨⟨(i 0).val, by rw [show cfg1.N = 8 from N_1]; omega⟩, rfl⟩
  obtain ⟨-, -, -, -, -, -, -, ⟨o0, o1, o2⟩⟩ := idxKV t
  refine ⟨t, flush1_4 t, ?_⟩
  rw [mem_blkV]
  intro a
  match a with
  | ⟨0, _⟩ => show win1_4.index t (0 : Fin 3) * 1 ≤ (i 0).val ∧ (i 0).val < win1_4.index t (0 : Fin 3) * 1 + 1; rw [o0]; omega
  | ⟨1, _⟩ => show win1_4.index t (1 : Fin 3) * 32 ≤ (i 1).val ∧ (i 1).val < win1_4.index t (1 : Fin 3) * 32 + 32; rw [o1]; omega
  | ⟨2, _⟩ => show win1_4.index t (2 : Fin 3) * 128 ≤ (i 2).val ∧ (i 2).val < win1_4.index t (2 : Fin 3) * 128 + 128; rw [o2]; omega

/-- After the region the value result holds the whole projection, by heads. -/
theorem finalV (c : Dev nD) : (dat1 V c).arrAt 4 cfg1.N
    = HeadSplit.heads (show 1024 = 8 * 128 from rfl) (V c main_v1) (V c main_arg3) :=
  (dat1 V c).arrAt_eq_of_cover 4 _ (fun t _ => flushedV V c t) coverV

end Cert.KernelIdeal.Arrays

end
-- ==== Proof.KernelRun.lean ====
/-
  The idealized kernel's run with its results named. The program is: flatten `x` to `[32, 8192]` and change its
  format (the identity at the extended reals); the query call; the key / value call; a leading unit axis added to each
  of the three results. Every weakly fair execution terminates with every buffer at the contents obtained by folding
  these four stretches over the launch memory; read back at the three result buffers, that fold is the unit axis added
  to the head-split contraction of the flattened `x` with `wq`, with `wk` and with `wv`.
-/
import proofs.«126660_j86131274154272_2_alg».proof.Proof.Gen.KernelIdeal.Frame
import proofs.«126660_j86131274154272_2_alg».proof.Proof.KernelArrays
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the fold of
    the program's four stretches over the launch memory. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end AnyInstance

/-! ## The results, read back at the extended reals -/

variable (m : (ℓ : Loc nD τ sig) → Buf (Elt Ideal) ℓ) (ρ : Dev nD → PrngReg)

/-- `x` flattened to `[32, 8192]`. -/
abbrev xflat (c : Dev nD) : S32x8192.Idx → EReal :=
  shapeCast S32x8192 (m ((c : Thread nD τ).loc main_arg0)) shapeCasts_S1x1x32x8192_S32x8192

/-- The query call finds the flattened `x` (its change of format is the identity) … -/
theorem V1_x (c : Dev nD) : (V1 m ρ c main_v1 : S32x8192.Idx → EReal) = xflat m c := by
  show StableHlo.after hostOps0 (W0 m ρ c) (Proc.devRef .tc main_v1) = _
  after_results
  rfl

/-- … and `wq` as launched. -/
theorem V1_wq (c : Dev nD) : (V1 m ρ c main_arg1 : S8192x8192.Idx → EReal) = m ((c : Thread nD τ).loc main_arg1) := by
  show StableHlo.after hostOps0 (W0 m ρ c) (Proc.devRef .tc main_arg1) = _
  after_results

/-- The key / value call finds the same flattened `x`: the query call only reads it … -/
theorem V2_x (c : Dev nD) : (V2 m ρ c main_v1 : S32x8192.Idx → EReal) = xflat m c :=
  ((W2_arr m ρ c 0).trans (((dat0 (V1 m ρ) c).arrAt_in 0 rfl _).trans (A_eq0 (V1 m ρ) c 0))).trans (V1_x m ρ c)

/-- … and `wk`, `wv` as launched: the query call does not touch them. -/
theorem V2_wk (c : Dev nD) : (V2 m ρ c main_arg2 : S1024x8192.Idx → EReal) = m ((c : Thread nD τ).loc main_arg2) := by
  refine (W2_of_ne m ρ c main_arg2 (by decide)).trans ?_
  show StableHlo.after hostOps0 (W0 m ρ c) (Proc.devRef .tc main_arg2) = _
  after_results
theorem V2_wv (c : Dev nD) : (V2 m ρ c main_arg3 : S1024x8192.Idx → EReal) = m ((c : Thread nD τ).loc main_arg3) := by
  refine (W2_of_ne m ρ c main_arg3 (by decide)).trans ?_
  show StableHlo.after hostOps0 (W0 m ρ c) (Proc.devRef .tc main_arg3) = _
  after_results

/-- The query result before its unit axis: left by the query call, untouched by the key / value call. -/
theorem arrQ (c : Dev nD) : (W3 m ρ c (Proc.devRef .tc main_v2) : S64x32x128.Idx → EReal)
    = HeadSplit.heads (show 8192 = 64 * 128 from rfl) (xflat m c) (m ((c : Thread nD τ).loc main_arg1)) :=
  (W3_of_ne m ρ c main_v2 (by decide)).trans ((W2_arr m ρ c 2).trans ((Arrays.finalQ (V1 m ρ) c).trans
    (congrArg₂ (HeadSplit.heads (show 8192 = 64 * 128 from rfl)) (V1_x m ρ c) (V1_wq m ρ c))))

/-- The key and value results before their unit axis: left by the key / value call. -/
theorem arrK (c : Dev nD) : (W3 m ρ c (Proc.devRef .tc main_v3_0) : S8x32x128.Idx → EReal)
    = HeadSplit.heads (show 1024 = 8 * 128 from rfl) (xflat m c) (m ((c : Thread nD τ).loc main_arg2)) :=
  (W3_arr m ρ c 3).trans ((Arrays.finalK (V2 m ρ) c).trans
    (congrArg₂ (HeadSplit.heads (show 1024 = 8 * 128 from rfl)) (V2_x m ρ c) (V2_wk m ρ c)))
theorem arrV (c : Dev nD) : (W3 m ρ c (Proc.devRef .tc main_v3_1) : S8x32x128.Idx → EReal)
    = HeadSplit.heads (show 1024 = 8 * 128 from rfl) (xflat m c) (m ((c : Thread nD τ).loc main_arg3)) :=
  (W3_arr m ρ c 4).trans ((Arrays.finalV (V2 m ρ) c).trans
    (congrArg₂ (HeadSplit.heads (show 1024 = 8 * 128 from rfl)) (V2_x m ρ c) (V2_wv m ρ c)))

/-- The three results: the unit axis added to each. -/
theorem outQ (c : Dev nD) : W4 m ρ c (Proc.devRef .tc main_v4)
    = broadcastInDim S1x64x32x128 ![1, 2, 3] bcast_S64x32x128_S1x64x32x128_1_2_3
        (HeadSplit.heads (show 8192 = 64 * 128 from rfl) (xflat m c) (m ((c : Thread nD τ).loc main_arg1))) := by
  show StableHlo.after hostOps2 (W3 m ρ c) (Proc.devRef .tc main_v4) = _
  after_results
  exact congrArg _ (arrQ m ρ c)
theorem outK (c : Dev nD) : W4 m ρ c (Proc.devRef .tc main_v5)
    = broadcastInDim S1x8x32x128 ![1, 2, 3] bcast_S8x32x128_S1x8x32x128_1_2_3
        (HeadSplit.heads (show 1024 = 8 * 128 from rfl) (xflat m c) (m ((c : Thread nD τ).loc main_arg2))) := by
  show StableHlo.after hostOps2 (W3 m ρ c) (Proc.devRef .tc main_v5) = _
  after_results
  exact congrArg _ (arrK m ρ c)
theorem outV (c : Dev nD) : W4 m ρ c (Proc.devRef .tc main_v6)
    = broadcastInDim S1x8x32x128 ![1, 2, 3] bcast_S8x32x128_S1x8x32x128_1_2_3
        (HeadSplit.heads (show 1024 = 8 * 128 from rfl) (xflat m c) (m ((c : Thread nD τ).loc main_arg3))) := by
  show StableHlo.after hostOps2 (W3 m ρ c) (Proc.devRef .tc main_v6) = _
  after_results
  exact congrArg _ (arrV m ρ c)

/-- The run, read: the three results at the head-split projections of the launch contents, the arguments unchanged. -/
theorem run : θ_run defs (onTc (τ := τ) (main (F := Ideal))) ⟨m, fun _ => 0, ρ⟩ (fun r => ∀ c : Dev nD,
      r.2.mem ((c : Thread nD τ).loc main_v4)
        = broadcastInDim S1x64x32x128 ![1, 2, 3] bcast_S64x32x128_S1x64x32x128_1_2_3
            (HeadSplit.heads (show 8192 = 64 * 128 from rfl) (xflat m c) (m ((c : Thread nD τ).loc main_arg1)))
      ∧ r.2.mem ((c : Thread nD τ).loc main_v5)
        = broadcastInDim S1x8x32x128 ![1, 2, 3] bcast_S8x32x128_S1x8x32x128_1_2_3
            (HeadSplit.heads (show 1024 = 8 * 128 from rfl) (xflat m c) (m ((c : Thread nD τ).loc main_arg2)))
      ∧ r.2.mem ((c : Thread nD τ).loc main_v6)
        = broadcastInDim S1x8x32x128 ![1, 2, 3] bcast_S8x32x128_S1x8x32x128_1_2_3
            (HeadSplit.heads (show 1024 = 8 * 128 from rfl) (xflat m c) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
      ⟨(h c _ (mem_uc main_v4 (by decide))).trans (outQ m ρ c),
       (h c _ (mem_uc main_v5 (by decide))).trans (outK m ρ c),
       (h c _ (mem_uc main_v6 (by decide))).trans (outV m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_bufs m ρ)

end Cert.KernelIdeal.RunValue

end
-- ==== Proof.RefHeads.lean ====
/-
  The reference's three results before their leading unit axis is added: each is the product of the rows of the
  flattened `x` with the rows of a weight matrix, by the host's `dot_general`, its last axis split into heads of 128
  lanes and its first two axes exchanged — the head-split contraction `HeadSplit.heads` of the two operands.
-/
import proofs.«126660_j86131274154272_2_alg».proof.Proof.Gen.ReferenceIdeal.Read
import proofs.«126660_j86131274154272_2_alg».proof.Proof.LibHeadSplit

noncomputable section

namespace Cert.ReferenceIdeal.Heads

open Cert.ReferenceIdeal Cert.ReferenceIdeal.Gen Idealize.ShloMosaic Idealize.ShloMosaic.ValueIdx

/-- The query projection: 64 heads out of 8192 rows of `wq`. -/
theorem q_eq (xf : FVec Ideal S32x8192 .f32) (w : FVec Ideal S8192x8192 .f32) :
    transpose S64x32x128 [1, 0, 2]
        (shapeCast S32x64x128 (Host.dotGeneral dot_S32x8192_S8192x8192_S32x8192_1_1_0_0_n_n none xf w)
          shapeCasts_S32x8192_S32x64x128) transposes_S32x64x128_S64x32x128_1_0_2
      = HeadSplit.heads (show 8192 = 64 * 128 from rfl) xf w :=
  HeadSplit.hostDot_heads (show 8192 = 64 * 128 from rfl) dot_S32x8192_S8192x8192_S32x8192_1_1_0_0_n_n rfl rfl
    Read.lhs_main_v1_0 Read.lhs_main_v1_1 Read.rhs_main_v1_0 Read.rhs_main_v1_1 none xf w _ _

/-- The key and value projections: 8 heads out of the 1024 rows of `wk` or of `wv`. -/
theorem kv_eq (xf : FVec Ideal S32x8192 .f32) (w : FVec Ideal S1024x8192 .f32) :
    transpose S8x32x128 [1, 0, 2]
        (shapeCast S32x8x128 (Host.dotGeneral dot_S32x8192_S1024x8192_S32x1024_1_1_0_0_n_n none xf w)
          shapeCasts_S32x1024_S32x8x128) transposes_S32x8x128_S8x32x128_1_0_2
      = HeadSplit.heads (show 1024 = 8 * 128 from rfl) xf w :=
  HeadSplit.hostDot_heads (show 1024 = 8 * 128 from rfl) dot_S32x8192_S1024x8192_S32x1024_1_1_0_0_n_n rfl rfl
    Read.lhs_main_v2_0 Read.lhs_main_v2_1 Read.rhs_main_v2_0 Read.rhs_main_v2_1 none xf w _ _

end Cert.ReferenceIdeal.Heads

end
-- ==== Proof.lean ====
/-
  The kernel projects a `[32, 8192]` activation onto 64 query heads and 8 key and 8 value heads of 128 lanes:
  `q[h, b, d] = ∑ k, x[b, k] · wq[128·h + d, k]`, and the same with `wk`, `wv`. It does so in two tiled calls (two query
  heads per grid point; one key and one value head per grid point), each point multiplying the whole activation by a block
  of weight rows and writing its heads in place; the reference multiplies by the whole weight matrices, splits the result's
  last axis into heads and exchanges the first two axes. At the extended reals both sides are that one sum for every
  head, row and lane — the changes of float format are the identity, and a block of rows of a product is the product with
  the block of rows — so no property of the inputs beyond their being there is used.

  The word-level kernel, its idealization and the reference each run to completion with their arguments unchanged (the
  first two by the generated frames, the third by the reference's generated run); the idealization rewrote nothing; and
  the two idealized programs end with equal results: the kernel's by `Cert.KernelIdeal.RunValue.run`, the reference's by
  its generated run read through `Cert.ReferenceIdeal.Heads`.
-/
import proofs.«126660_j86131274154272_2_alg».proof.Defs
import proofs.«126660_j86131274154272_2_alg».proof.Proof.Gen.Kernel
import proofs.«126660_j86131274154272_2_alg».proof.Proof.Gen.Kernel.Frame
import proofs.«126660_j86131274154272_2_alg».proof.Proof.Gen.KernelIdeal
import proofs.«126660_j86131274154272_2_alg».proof.Proof.Gen.KernelIdeal.Frame
import proofs.«126660_j86131274154272_2_alg».proof.Proof.Gen.ReferenceIdeal
import proofs.«126660_j86131274154272_2_alg».proof.Proof.Gen.Pre_finite_inputs
import proofs.«126660_j86131274154272_2_alg».proof.Proof.Gen.ReferenceIdeal.Run
import proofs.«126660_j86131274154272_2_alg».proof.Proof.Gen.ReferenceIdeal.Read
import proofs.«126660_j86131274154272_2_alg».proof.Proof.KernelRun
import proofs.«126660_j86131274154272_2_alg».proof.Proof.RefHeads

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on `x`, `wq`, `wk`, `wv` both programs end with, for each projection, the unit axis added to
    the head-split contraction of the flattened `x` with the weight matrix. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3⟩ := hagree c
  obtain ⟨h6, h9, h12, hrest⟩ := h c
  refine ⟨h6.trans ?_, h9.trans ?_, h12.trans ?_, hrest⟩
  · rw [a0, a1, Cert.ReferenceIdeal.Heads.q_eq]
  · rw [a0, a2, Cert.ReferenceIdeal.Heads.kv_eq]
  · rw [a0, a3, Cert.ReferenceIdeal.Heads.kv_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
